-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S100000x64 : Shape := ⟨2, ![100000, 64]⟩
abbrev S5000x128 : Shape := ⟨2, ![5000, 128]⟩
abbrev S5000x64 : Shape := ⟨2, ![5000, 64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 24
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S100000x64 : Shape := ⟨2, ![100000, 64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The whole program's run, with its result named.

  The program is: the dense kernel, sixteen array operations on the host, the clipping kernel.  Every weakly fair
  execution from any memory with zero counters terminates without a fault; when it does, the result buffer holds what
  the last segment boundary's contents say it holds (the clipping kernel's write-backs, folded), and the six argument
  buffers hold what they held at the start.  The segments, their chaining and the thread states are those of the
  generated frame module; the final reading takes every unscoped buffer the last thread state holds, the result buffer
  among them.
-/
import proofs.«161770_j15367392985683_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Whole

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Payloads.lean ====
/-
  What the two kernel bodies compute on one block, read at one entry.

  The first body takes a 5000 × 128 block of x, all of W and all of b; at entry (p, q) of its 5000 × 64 result it
  leaves the sum over k of x(p, k) · W(k, q), plus b(q): the narrowing to bf16 before the matrix unit is the
  identity on exact values, the matrix unit accumulates into zeros, and the bias row is broadcast over the rows.
  The second body clips its block at zero, entry by entry.
-/
import proofs.«161770_j15367392985683_1_alg».proof.Proof.Gen.KernelIdeal.Skeleton
import proofs.«161770_j15367392985683_1_alg».proof.Proof.LibContractPlain
import Idealize.ShloMosaic.Lib.ValueLayout
import Idealize.ShloMosaic.Lib.Pipeline.Value

noncomputable section

open scoped BigOperators

namespace Cert.KernelIdeal.Blocks

open Idealize.ShloMosaic Idealize.ShloMosaic.ValueIdx Cert.KernelIdeal Cert.KernelIdeal.Gen

/-- The dense body at entry (p, q) of its block. -/
theorem dense_pay_apply (x0 : Vec Ideal S5000x128 .f32) (x1 : Vec Ideal S128x64 .f32) (x2 : Vec Ideal S64 .f32)
    (p : Fin 5000) (q : Fin 64) :
    k0_pay1 (F := Ideal) x0 x1 x2 (ix2 p q) = (∑ k : Fin 128, x0 (ix2 p k) * x1 (ix2 k q)) + x2 (ix1 q) := by
  unfold k0_pay1
  rw [addf_apply, Cert.Lib.ContractPlain.matmulZero_apply (M := 5000) (K := 128) (N := 64)
    dot_S5000x128_S128x64_S5000x64_1_0_0_1_n_n rfl, broadcastTo_1b_ab_apply, shapeCast_a_1a_apply]
  rfl

/-- The clipping body at any entry of its block. -/
theorem clip_pay_apply (x0 : Vec Ideal S5000x64 .f32) (j : S5000x64.Idx) :
    k1_pay1 (F := Ideal) x0 j = max (x0 j) (Ideal.ofBits .f32 0x00000000#32) := by
  unfold k1_pay1
  rw [maximumf_apply, shapeCast_self]
  rfl

end Cert.KernelIdeal.Blocks

end
-- ==== Proof.Spec.lean ====
/-
  The graph layer as mathematics, on the extended reals.

  A node feature matrix x (100000 × 128) goes through a dense layer, xw = x · W + b (100000 × 64); every edge e
  then carries the message val[e] · xw[col[e]] to the node row[e], where the messages are added up; the sums are
  clipped below at zero.  This file names the two ends of that chain index by index: the dense layer at the
  entry (p, q), and the clipping of an array at zero.  The middle (gather, scale, scatter-add) is the same list
  of array operations in both programs and is never opened.
-/
import Idealize.ShloMosaic.Lib.ValueIdx
import Idealize.ShloMosaic.PureOps.Ideal

noncomputable section

open scoped BigOperators

namespace Cert.GraphLayer

open Idealize.ShloMosaic Idealize.ShloMosaic.ValueIdx

/-- Entry (p, q) of the dense layer: row p of x against column q of W, a sum of 128 products, plus the bias at q. -/
def denseEntry (x : FVec Ideal ⟨2, ![100000, 128]⟩ .f32) (W : FVec Ideal ⟨2, ![128, 64]⟩ .f32) (b : FVec Ideal ⟨1, ![64]⟩ .f32)
    (p : Fin 100000) (q : Fin 64) : EReal :=
  (∑ k : Fin 128, x (ix2 p k) * W (ix2 k q)) + b (ix1 q)

/-- The dense layer as one array: at an index, `denseEntry` of the index's two coordinates. -/
def dense (x : FVec Ideal ⟨2, ![100000, 128]⟩ .f32) (W : FVec Ideal ⟨2, ![128, 64]⟩ .f32) (b : FVec Ideal ⟨1, ![64]⟩ .f32) :
    FVec Ideal ⟨2, ![100000, 64]⟩ .f32 :=
  fun i => denseEntry x W b (i 0) (i 1)

theorem dense_apply (x : FVec Ideal ⟨2, ![100000, 128]⟩ .f32) (W : FVec Ideal ⟨2, ![128, 64]⟩ .f32) (b : FVec Ideal ⟨1, ![64]⟩ .f32)
    (p : Fin 100000) (q : Fin 64) : dense x W b (ix2 p q) = denseEntry x W b p q := rfl

/-- An array clipped below at zero, entry by entry (the zero is the float word of all zero bits). -/
def clip (a : FVec Ideal ⟨2, ![100000, 64]⟩ .f32) : FVec Ideal ⟨2, ![100000, 64]⟩ .f32 :=
  fun i => max (a i) (Ideal.ofBits .f32 0x00000000#32)

end Cert.GraphLayer

end
-- ==== Proof.DenseArray.lean ====
/-
  The first kernel's result array.

  The grid has 20 points; point t takes rows 5000·t … 5000·t + 4999 of x, all of W and all of b, and writes back rows
  5000·t … 5000·t + 4999 of the result.  Entry (p, q) of what it writes is the dense layer at row 5000·t + p, column q, of
  the arrays as the kernel finds them: a block of x read at (p, k) is x at (5000·t + p, k), and the blocks of W and b are
  W and b.  The twenty row bands cover all 100000 rows (row r lies in band r / 5000), so the array the kernel leaves is the
  dense layer of the arrays it found.  The arrays are a parameter: whatever the memory holds when the kernel starts.
-/
import proofs.«161770_j15367392985683_1_alg».proof.Proof.Gen.KernelIdeal.Frame
import proofs.«161770_j15367392985683_1_alg».proof.Proof.Payloads
import proofs.«161770_j15367392985683_1_alg».proof.Proof.Spec

set_option maxRecDepth 16384

noncomputable section

open scoped BigOperators

namespace Cert.KernelIdeal.DenseArray

open Idealize.ShloMosaic Idealize.ShloMosaic.TcCoe Idealize.SL.Sem Idealize.ShloMosaic.ValueIdx
open Idealize.ShloMosaic.Pipeline (Dat)
open Cert.KernelIdeal Cert.KernelIdeal.Gen Cert.GraphLayer

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- Where each window's block sits at point t: x and the result move down one band per point, W and b stay. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The block of x at point t, at (p, k), is x at row 5000·t + p, column k. -/
theorem x_block_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → Elt Ideal .f32) i := by
  obtain ⟨e0, e1, -⟩ := block_index t
  unfold iblk0
  rw [View.read_apply]
  refine congrArg (V c main_arg0 : S100000x128.Idx → Elt Ideal .f32) ?_
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The block of W at any point is W. -/
theorem w_block_apply (c : Dev nD) (t : Fin cfg0.N) (y : S128x64.Idx) :
    (iblk0 V c 1 t : Vec Ideal S128x64 .f32) y = (V c main_arg4 : S128x64.Idx → Elt Ideal .f32) y := by
  obtain ⟨-, -, e0, e1, -⟩ := block_index t
  unfold iblk0
  rw [View.read_apply]
  refine congrArg (V c main_arg4 : S128x64.Idx → Elt Ideal .f32) ?_
  funext a
  apply Fin.ext
  match a with
  | ⟨0, _⟩ => show win0_1.index t 0 * 128 + 1 * (y 0).val = (y 0).val; rw [e0]; omega
  | ⟨1, _⟩ => show win0_1.index t 1 * 64 + 1 * (y 1).val = (y 1).val; rw [e1]; omega

/-- The block of b at any point is b. -/
theorem b_block_apply (c : Dev nD) (t : Fin cfg0.N) (y : S64.Idx) :
    (iblk0 V c 2 t : Vec Ideal S64 .f32) y = (V c main_arg5 : S64.Idx → Elt Ideal .f32) y := by
  obtain ⟨-, -, -, -, e0, -⟩ := block_index t
  unfold iblk0
  rw [View.read_apply]
  refine congrArg (V c main_arg5 : S64.Idx → Elt Ideal .f32) ?_
  funext a
  apply Fin.ext
  match a with
  | ⟨0, _⟩ => show win0_2.index t 0 * 64 + 1 * (y 0).val = (y 0).val; rw [e0]; omega

/-- What the body leaves in the result's staging buffer, at (p, q), from any three input blocks. -/
theorem out_apply (x0 : Vec Ideal S5000x128 .f32) (x1 : Vec Ideal S128x64 .f32) (x2 : Vec Ideal S64 .f32)
    (p : Fin 5000) (q : Fin 64) :
    out0_3 (F := Ideal) x0 x1 x2 (ix2 p q) = (∑ k : Fin 128, x0 (ix2 p k) * x1 (ix2 k q)) + x2 (ix1 q) := by
  unfold out0_3
  rw [View.canon_unit_zero zero2]
  simp only [View.ld_unit_zero (S := S5000x128) zero2, View.ld_unit_zero (S := S128x64) zero2, View.ld_unit_zero (S := S64) zero1]
  exact Cert.KernelIdeal.Blocks.dense_pay_apply x0 x1 x2 p q

/-- What point t writes back is band t of the dense layer of the arrays the kernel found. -/
theorem flushed_eq (c : Dev nD) (t : Fin cfg0.N) :
    (dat0 V c).flushed 3 t
      = ((cfg0.win 3).blk t).view.read (Elt Ideal) (dense (V c main_arg0) (V c main_arg4) (V c main_arg5)) := by
  have hN : cfg0.N = 20 := N_0
  have ht : t.val < 20 := by have := t.isLt; omega
  obtain ⟨-, -, -, -, -, e0, e1⟩ := block_index t
  show (cfg0.win 3).cut (grid0.coords t) ((dat0 V c).after 3 t) = _
  rw [after0_3]
  funext j
  obtain ⟨p, q, rfl⟩ : ∃ (p : Fin 5000) (q : Fin 64), j = ix2 p q := ⟨j 0, j 1, eq_ix2 j⟩
  have he : ((cfg0.win 3).blk t).view.emb (ix2 p q) = ix2 (⟨5000 * t.val + p.val, by omega⟩ : Fin 100000) q := by
    funext a
    apply Fin.ext
    match a with
    | ⟨0, _⟩ => show win0_3.index t 0 * 5000 + 1 * p.val = 5000 * t.val + p.val; rw [e0]; omega
    | ⟨1, _⟩ => show win0_3.index t 1 * 64 + 1 * q.val = q.val; rw [e1]; omega
  show out0_3 (iblk0 V c 0 t) (iblk0 V c 1 t) (iblk0 V c 2 t) (ix2 p q)
    = dense (V c main_arg0) (V c main_arg4) (V c main_arg5) (((cfg0.win 3).blk t).view.emb (ix2 p q))
  rw [he, dense_apply]
  refine (out_apply (iblk0 V c 0 t) (iblk0 V c 1 t) (iblk0 V c 2 t) p q).trans ?_
  unfold denseEntry
  refine congrArg₂ (· + ·) (Finset.sum_congr rfl fun k _ => congrArg₂ (· * ·) ?_ ?_) ?_
  · exact x_block_apply V c t (ix2 p k) (ix2 (⟨5000 * t.val + p.val, by omega⟩ : Fin 100000) k) rfl rfl
  · exact w_block_apply V c t (ix2 k q)
  · exact b_block_apply V c t (ix1 q)

/-- An index of the result array is in point t's band iff its coordinates are in the band's ranges. -/
theorem mem_band (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v0).slice (win0_3.rect t)).set ↔ _
  rw [View.set_slice_whole, Rect.mem_set_unit]
  exact Iff.rfl

/-- Every index of the result array lies in the band of the point its row divided by 5000 names. -/
theorem covered (i : S100000x64.Idx) :
    ∃ t : Fin cfg0.N, (cfg0.win 3).flush t = true ∧ i ∈ ((cfg0.win 3).blk t).view.set := by
  have hN : grid0.N = 20 := N_0
  have hi0 : (i 0).val < 100000 := (i 0).isLt
  have hi1 : (i 1).val < 64 := (i 1).isLt
  let t : Fin cfg0.N := ⟨(i 0).val / 5000, by show (i 0).val / 5000 < grid0.N; omega⟩
  obtain ⟨-, -, -, -, -, e0, e1⟩ := block_index t
  have tv : t.val = (i 0).val / 5000 := rfl
  refine ⟨t, flush0_3 t, ?_⟩
  rw [mem_band]
  intro a
  match a with
  | ⟨0, _⟩ => show win0_3.index t 0 * 5000 ≤ (i 0).val ∧ (i 0).val < win0_3.index t 0 * 5000 + 5000; rw [e0, tv]; omega
  | ⟨1, _⟩ => show win0_3.index t 1 * 64 ≤ (i 1).val ∧ (i 1).val < win0_3.index t 1 * 64 + 64; rw [e1]; omega

/-- THE RESULT ARRAY of the first kernel: the dense layer of the arrays it found. -/
theorem final (c : Dev nD) :
    (dat0 V c).arrAt 3 cfg0.N = dense (V c main_arg0) (V c main_arg4) (V c main_arg5) :=
  (dat0 V c).arrAt_eq_of_cover 3 (dense (V c main_arg0) (V c main_arg4) (V c main_arg5))
    (fun t _ => flushed_eq V c t) covered

end Cert.KernelIdeal.DenseArray

end
-- ==== Proof.ClipArray.lean ====
/-
  The second kernel's result array.

  Again 20 points; point t takes rows 5000·t … 5000·t + 4999 of its one input array and writes back the same rows of the
  result, each entry clipped below at zero.  Entry (p, q) of the block it reads is the input at (5000·t + p, q), which is
  also where entry (p, q) of the block it writes lands; the twenty bands cover the array.  So the array the kernel leaves
  is its input array clipped at zero, whatever that input is.
-/
import proofs.«161770_j15367392985683_1_alg».proof.Proof.Gen.KernelIdeal.Frame
import proofs.«161770_j15367392985683_1_alg».proof.Proof.Payloads
import proofs.«161770_j15367392985683_1_alg».proof.Proof.Spec

set_option maxRecDepth 16384

noncomputable section

namespace Cert.KernelIdeal.ClipArray

open Idealize.ShloMosaic Idealize.ShloMosaic.TcCoe Idealize.SL.Sem Idealize.ShloMosaic.ValueIdx
open Idealize.ShloMosaic.Pipeline (Dat)
open Cert.KernelIdeal Cert.KernelIdeal.Gen Cert.GraphLayer

variable (V : (c : Dev nD) → (b : Ref sig .tc) → Buf (Elt Ideal) ((c : Thread nD τ).loc b))

theorem zero2 : (![0, 0] : Fin 2 → Nat) = fun _ => 0 := funext fun a => by fin_cases a <;> rfl

/-- Where the two windows' blocks sit at point t: both one band down per point. -/
theorem block_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What the body leaves in the result's staging buffer, at any entry, from any input block. -/
theorem out_apply (x0 : Vec Ideal S5000x64 .f32) (j : S5000x64.Idx) :
    out1_1 (F := Ideal) x0 j = max (x0 j) (Ideal.ofBits .f32 0x00000000#32) := by
  unfold out1_1
  rw [View.canon_unit_zero zero2]
  simp only [View.ld_unit_zero (S := S5000x64) zero2]
  exact Cert.KernelIdeal.Blocks.clip_pay_apply x0 j

/-- What point t writes back is band t of the input array clipped at zero. -/
theorem flushed_eq (c : Dev nD) (t : Fin cfg1.N) :
    (dat1 V c).flushed 1 t = ((cfg1.win 1).blk t).view.read (Elt Ideal) (clip (V c main_v13)) := by
  obtain ⟨a0, a1, e0, e1⟩ := block_index t
  show (cfg1.win 1).cut (grid1.coords t) ((dat1 V c).after 1 t) = _
  rw [after1_1]
  funext j
  show out1_1 (iblk1 V c 0 t) j = clip (V c main_v13) (((cfg1.win 1).blk t).view.emb j)
  refine (out_apply (iblk1 V c 0 t) j).trans ?_
  unfold clip
  refine congrArg (fun z => max z (Ideal.ofBits .f32 0x00000000#32)) ?_
  unfold iblk1
  rw [View.read_apply]
  refine congrArg (V c main_v13 : S100000x64.Idx → Elt Ideal .f32) ?_
  funext a
  apply Fin.ext
  match a with
  | ⟨0, _⟩ => show win1_0.index t 0 * 5000 + 1 * (j 0).val = win1_1.index t 0 * 5000 + 1 * (j 0).val; rw [a0, e0]
  | ⟨1, _⟩ => show win1_0.index t 1 * 64 + 1 * (j 1).val = win1_1.index t 1 * 64 + 1 * (j 1).val; rw [a1, e1]

/-- An index of the result array is in point t's band iff its coordinates are in the band's ranges. -/
theorem mem_band (t : Fin cfg1.N) (i : S100000x64.Idx) :
    i ∈ ((cfg1.win 1).blk t).view.set ↔ ∀ a : Fin 2, win1_1.index t a * S5000x64.size a ≤ (i a).val
      ∧ (i a).val < win1_1.index t a * S5000x64.size a + S5000x64.size a := by
  show i ∈ ((View.whole main_v14).slice (win1_1.rect t)).set ↔ _
  rw [View.set_slice_whole, Rect.mem_set_unit]
  exact Iff.rfl

/-- Every index of the result array lies in the band of the point its row divided by 5000 names. -/
theorem covered (i : S100000x64.Idx) :
    ∃ t : Fin cfg1.N, (cfg1.win 1).flush t = true ∧ i ∈ ((cfg1.win 1).blk t).view.set := by
  have hN : grid1.N = 20 := N_1
  have hi0 : (i 0).val < 100000 := (i 0).isLt
  have hi1 : (i 1).val < 64 := (i 1).isLt
  let t : Fin cfg1.N := ⟨(i 0).val / 5000, by show (i 0).val / 5000 < grid1.N; omega⟩
  obtain ⟨-, -, e0, e1⟩ := block_index t
  have tv : t.val = (i 0).val / 5000 := rfl
  refine ⟨t, flush1_1 t, ?_⟩
  rw [mem_band]
  intro a
  match a with
  | ⟨0, _⟩ => show win1_1.index t 0 * 5000 ≤ (i 0).val ∧ (i 0).val < win1_1.index t 0 * 5000 + 5000; rw [e0, tv]; omega
  | ⟨1, _⟩ => show win1_1.index t 1 * 64 ≤ (i 1).val ∧ (i 1).val < win1_1.index t 1 * 64 + 64; rw [e1]; omega

/-- THE RESULT ARRAY of the second kernel: its input array clipped at zero. -/
theorem final (c : Dev nD) : (dat1 V c).arrAt 1 cfg1.N = clip (V c main_v13) :=
  (dat1 V c).arrAt_eq_of_cover 1 (clip (V c main_v13)) (fun t _ => flushed_eq V c t) covered

end Cert.KernelIdeal.ClipArray

end
-- ==== Proof.KernelValue.lean ====
/-
  What the program's result buffer holds after the run, as one function of the six arguments.

  Reading the segment boundaries backwards: the result buffer is the clipping kernel's output array, which is its input
  array clipped at zero; that input is what the sixteen host operations leave in their last buffer, which is `spread` —
  gather the rows named by col, scale each by val, add them into the rows named by row — of the dense kernel's output
  array and of the three edge arguments, none of which the dense kernel touches; and the dense kernel's output array is
  the dense layer of x, W and b as launched.
-/
import proofs.«161770_j15367392985683_1_alg».proof.Proof.KernelRun
import proofs.«161770_j15367392985683_1_alg».proof.Proof.DenseArray
import proofs.«161770_j15367392985683_1_alg».proof.Proof.ClipArray
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.GraphLayer

/-- The edge step on whole arrays: negative column numbers are wrapped once by 100000, the rows of `L` they name are
    gathered (one 64-entry row per edge), each gathered row is scaled by its edge's value, and the scaled rows are added
    into an array of zeros at the rows `row` names.  It is the program's own list of array operations, kept closed. -/
def spread (L : (⟨S100000x64, .f32⟩ : BufTy).Contents (Elt Ideal)) (row col : (⟨S1600000, .i32⟩ : BufTy).Contents (Elt Ideal))
    (val : (⟨S1600000, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 row)
    (mulf (F := Ideal)
      (broadcastInDim S1600000x64 ![0, 1] bcast_S1600000x1_S1600000x64_0_1 (broadcastInDim S1600000x1 ![0] bcast_S1600000_S1600000x1_0 val))
      (Host.gather gather_S100000x64_S1600000x1_S1600000x64_1_0_n_n_0_1_164 L
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

variable (m : (ℓ : Loc nD τ sig) → Buf (Elt Ideal) ℓ) (ρ : Dev nD → PrngReg)

/-- The whole layer of the arguments as launched. -/
def result (c : Dev nD) : Buf (Elt Ideal) ((c.tc : Thread nD τ).loc main_v14) :=
  clip (spread (dense (m ((c.tc : Thread nD τ).loc main_arg0)) (m ((c.tc : Thread nD τ).loc main_arg4)) (m ((c.tc : Thread nD τ).loc main_arg5)))
    (m ((c.tc : Thread nD τ).loc main_arg1)) (m ((c.tc : Thread nD τ).loc main_arg2)) (m ((c.tc : Thread nD τ).loc main_arg3)))

/-- After the dense kernel, its output buffer holds the dense layer of the arguments as launched. -/
theorem after_dense (c : Dev nD) : W1 m ρ c (Proc.devRef .tc main_v0)
    = dense (m ((c.tc : Thread nD τ).loc main_arg0)) (m ((c.tc : Thread nD τ).loc main_arg4)) (m ((c.tc : Thread nD τ).loc main_arg5)) :=
  (W1_arr m ρ c 3).trans (Cert.KernelIdeal.DenseArray.final (V0 m ρ) c)

/-- The dense kernel leaves the three edge arguments as launched. -/
theorem after_dense_row (c : Dev nD) : W1 m ρ c (Proc.devRef .tc main_arg1) = m ((c.tc : Thread nD τ).loc main_arg1) :=
  W1_of_ne m ρ c main_arg1 (by decide)
theorem after_dense_col (c : Dev nD) : W1 m ρ c (Proc.devRef .tc main_arg2) = m ((c.tc : Thread nD τ).loc main_arg2) :=
  W1_of_ne m ρ c main_arg2 (by decide)
theorem after_dense_val (c : Dev nD) : W1 m ρ c (Proc.devRef .tc main_arg3) = m ((c.tc : Thread nD τ).loc main_arg3) :=
  W1_of_ne m ρ c main_arg3 (by decide)

/-- After the host operations, their last buffer holds `spread` of the four buffers they read. -/
theorem after_host (c : Dev nD) : W2 m ρ c (Proc.devRef .tc main_v13)
    = spread (W1 m ρ c (Proc.devRef .tc main_v0)) (W1 m ρ c (Proc.devRef .tc main_arg1)) (W1 m ρ c (Proc.devRef .tc main_arg2))
        (W1 m ρ c (Proc.devRef .tc main_arg3)) := by
  show StableHlo.after hostOps1 (W1 m ρ c) (Proc.devRef .tc main_v13) = _
  after_results
  rfl

/-- THE RESULT BUFFER at the last boundary is the whole layer of the arguments as launched. -/
theorem final (c : Dev nD) : W3 m ρ c (Proc.devRef .tc main_v14) = result m c := by
  refine (W3_arr m ρ c 1).trans ((Cert.KernelIdeal.ClipArray.final (V2 m ρ) c).trans ?_)
  show clip (W2 m ρ c (Proc.devRef .tc main_v13)) = _
  rw [after_host, after_dense, after_dense_row, after_dense_col, after_dense_val]
  rfl

/-- The run, read: the result buffer at the whole layer of the arguments, the arguments unchanged. -/
theorem run_result : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final m ρ c), (h c).2⟩) (run (F := Ideal) m ρ)

end Cert.KernelIdeal.Whole

end
-- ==== Proof.RefEnds.lean ====
/-
  The two ends of the reference's chain, index by index.

  The reference forms the dense layer as one matrix product of the whole x by W, plus b broadcast over the rows: at
  (p, q) that is the sum over k of x(p, k) · W(k, q), plus b(q) — the same entry the specification names.  At the other end
  it takes the maximum of the summed messages with an array of zeros, which is the clipping at zero.
-/
import proofs.«161770_j15367392985683_1_alg».proof.Proof.Gen.ReferenceIdeal.Read
import proofs.«161770_j15367392985683_1_alg».proof.Proof.LibContractPlain
import proofs.«161770_j15367392985683_1_alg».proof.Proof.Spec

noncomputable section

open scoped BigOperators

namespace Cert.ReferenceIdeal.Ends

open Idealize.ShloMosaic Idealize.ShloMosaic.ValueIdx
open Cert.ReferenceIdeal Cert.ReferenceIdeal.Gen Cert.ReferenceIdeal.Read Cert.GraphLayer

/-- The reference's dense stage (product of the whole arrays, plus the broadcast bias) is the dense layer. -/
theorem dense_stage (x : (⟨S100000x128, .f32⟩ : BufTy).Contents (Elt Ideal)) (W : (⟨S128x64, .f32⟩ : BufTy).Contents (Elt Ideal))
    (b : (⟨S64, .f32⟩ : BufTy).Contents (Elt Ideal)) : val_main_v3 (F := Ideal) x W b = dense x W b := by
  funext i
  obtain ⟨p, q, rfl⟩ : ∃ (p : Fin 100000) (q : Fin 64), i = ix2 p q := ⟨i 0, i 1, eq_ix2 i⟩
  rw [val_main_v3_apply, val_main_v2_apply, val_main_v1_apply, dense_apply]
  unfold denseEntry val_main_v0
  rw [Cert.Lib.ContractPlain.hostDot_apply (M := 100000) (K := 128) (N := 64)
    dot_S100000x128_S128x64_S100000x64_1_0_0_1_n_n rfl]
  refine congrArg₂ (· + ·) rfl (congrArg b ?_)
  funext a
  match a with
  | ⟨0, _⟩ => rfl

/-- The maximum with a splat of zeros is the clipping at zero. -/
theorem clip_stage (A : (⟨S100000x64, .f32⟩ : BufTy).Contents (Elt Ideal)) :
    maximumf (F := Ideal) A (broadcastInDim S100000x64 ![] bcast_S_S100000x64 (constant (F := Ideal) S_ .f32 0x00000000#32)) = clip A := by
  funext i
  rw [maximumf_apply]
  unfold clip
  refine congrArg (fun z => max (A i) z) ?_
  exact (broadcastInDim_apply _ bcast_S_S100000x64 (constant (F := Ideal) S_ .f32 0x00000000#32) i (fun a => a.elim0) (fun a => a.elim0)).trans rfl

end Cert.ReferenceIdeal.Ends

end
-- ==== Proof.Bridge.lean ====
/-
  The reference's result is the kernel program's result, as functions of the same six arrays.

  The reference's last stage is: maximum with zeros, of the scatter-add, of the scaled gather, of its dense stage.  The
  gather, the scaling and the scatter-add are the same array operations, with the same dimension numbers, as the kernel
  program's host operations, so that part is `spread` of the dense stage by unfolding names only.  The dense stage is the
  dense layer and the maximum with zeros is the clipping, index by index.
-/
import proofs.«161770_j15367392985683_1_alg».proof.Proof.KernelValue
import proofs.«161770_j15367392985683_1_alg».proof.Proof.RefEnds

noncomputable section

namespace Cert.GraphLayer.Bridge

open Idealize.ShloMosaic
open Cert.ReferenceIdeal Cert.ReferenceIdeal.Gen Cert.ReferenceIdeal.Read Cert.GraphLayer

/-- The reference's last stage, spelt with the kernel program's `spread`: the two programs apply one list of array
    operations between the dense stage and the clipping. -/
theorem last_stage_spread (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x64, .f32⟩ : BufTy).Contents (Elt Ideal))
    (x5 : (⟨S64, .f32⟩ : BufTy).Contents (Elt Ideal)) :
    val_main_v17 (F := Ideal) x0 x1 x2 x3 x4 x5
      = maximumf (F := Ideal) (Cert.KernelIdeal.Whole.spread (val_main_v3 (F := Ideal) x0 x4 x5) x1 x2 x3)
          (broadcastInDim S100000x64 ![] bcast_S_S100000x64 (constant (F := Ideal) S_ .f32 0x00000000#32)) := rfl

/-- The reference's result is the whole layer: the clipping of `spread` of the dense layer. -/
theorem reference_result (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x64, .f32⟩ : BufTy).Contents (Elt Ideal))
    (x5 : (⟨S64, .f32⟩ : BufTy).Contents (Elt Ideal)) :
    val_main_v17 (F := Ideal) x0 x1 x2 x3 x4 x5 = clip (Cert.KernelIdeal.Whole.spread (dense x0 x4 x5) x1 x2 x3) := by
  rw [last_stage_spread, Cert.ReferenceIdeal.Ends.dense_stage, Cert.ReferenceIdeal.Ends.clip_stage]

end Cert.GraphLayer.Bridge

end
-- ==== Proof.lean ====
/-
  A graph layer computed two ways gives one result on the extended reals.

  Both programs take node features x (100000 × 128), 1600000 edges (row, col, val), a weight matrix W (128 × 64) and a
  bias b (64), and return  relu( Â · (x · W + b) ),  where Â · y adds, into row row[e], val[e] times row col[e] of y, over
  all edges e.  One program computes x · W + b in a tiled kernel (twenty bands of 5000 rows, the factors narrowed to
  bf16 before the matrix unit), does the edge step with array operations on the host, and clips at zero in a second tiled
  kernel; the other is plain array code throughout.

  On exact values the narrowing is the identity and a product accumulated into zeros is the product, so band t of the
  first kernel's result is band t of the dense layer, and the twenty bands tile the array (DenseArray); the second
  kernel's result is its input clipped at zero, band by band (ClipArray); the edge step is the same list of array
  operations in both programs and stays closed (KernelValue, `spread`); and the reference's dense stage and its maximum
  with zeros are the same two functions, entry by entry (RefEnds, Bridge).  No law beyond reading each side at an index
  is used, so the finiteness of the inputs is never opened.

  The three frame claims are the generated frames (the reference's is its generated run with the result dropped); the
  idealization rewrote nothing, so that claim is trivial.
-/
import proofs.«161770_j15367392985683_1_alg».proof.Defs
import proofs.«161770_j15367392985683_1_alg».proof.Proof.Gen.Kernel
import proofs.«161770_j15367392985683_1_alg».proof.Proof.Gen.Kernel.Skeleton
import proofs.«161770_j15367392985683_1_alg».proof.Proof.Gen.Kernel.Launch
import proofs.«161770_j15367392985683_1_alg».proof.Proof.Gen.Kernel.Points
import proofs.«161770_j15367392985683_1_alg».proof.Proof.Gen.Kernel.Frame
import proofs.«161770_j15367392985683_1_alg».proof.Proof.Gen.KernelIdeal
import proofs.«161770_j15367392985683_1_alg».proof.Proof.Gen.KernelIdeal.Skeleton
import proofs.«161770_j15367392985683_1_alg».proof.Proof.Gen.KernelIdeal.Launch
import proofs.«161770_j15367392985683_1_alg».proof.Proof.Gen.KernelIdeal.Points
import proofs.«161770_j15367392985683_1_alg».proof.Proof.Gen.KernelIdeal.Frame
import proofs.«161770_j15367392985683_1_alg».proof.Proof.Gen.ReferenceIdeal
import proofs.«161770_j15367392985683_1_alg».proof.Proof.Gen.Pre_finite_inputs
import proofs.«161770_j15367392985683_1_alg».proof.Proof.Gen.ReferenceIdeal.Run
import proofs.«161770_j15367392985683_1_alg».proof.Proof.Gen.ReferenceIdeal.Read
import proofs.«161770_j15367392985683_1_alg».proof.Proof.KernelValue
import proofs.«161770_j15367392985683_1_alg».proof.Proof.Bridge
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_reference : Cert.frame_ReferenceIdeal :=
  fun m ρ _ => (θ_run Cert.ReferenceIdeal.defs _ _).mono (fun _ h c => (h c).2) (Cert.ReferenceIdeal.Value.run (F := Ideal) m ρ)

/-- From memories that agree on the six arguments both programs end with the result buffer at the whole layer of those
    arguments: the kernel program by its run read back, the reference by its run and the bridge. -/
theorem algebraic : Cert.algebraic_KernelIdeal_ReferenceIdeal := by
  intro m ρ m' ρ' _ hagree
  refine ⟨fun c => Cert.KernelIdeal.Whole.result m c, Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2.1,
    (hagree c).2.2.2.2.1, (hagree c).2.2.2.2.2]
  exact Cert.GraphLayer.Bridge.reference_result _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
